-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64x64 .f32) (main_arg10 : FVec F S64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg6 : FVec F S64x64 .f32) (main_arg7 : FVec F S64x64 .f32) (main_arg8 : FVec F S64 .f32) (main_arg9 : FVec F S64x64 .f32) (main_arg10 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x64 .f32) (main_arg1 : IVec S1600000 32) (main_arg2 : IVec S1600000 32) (main_arg3 : FVec F S64x64 .f32) (main_arg4 : FVec F S64x64 .f32) (main_arg5 : FVec F S64 .f32) (main_arg6 : FVec F S64x64 .f32) (main_arg7 : FVec F S64x64 .f32) (main_arg8 : FVec F S64 .f32) (main_arg9 : FVec F S64x64 .f32) (main_arg10 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S10000x64 : Shape := ⟨2, ![10000, 64]⟩
abbrev S10000x1 : Shape := ⟨2, ![10000, 1]⟩

abbrev nBuf : Space → Nat
  | .hbm => 49
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S100000x1, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S_, .f32⟩
  | .hbm, ⟨28, _⟩ => ⟨S100000x64, .f32⟩
  | .hbm, ⟨29, _⟩ => ⟨S1600000x1, .i32⟩
  | .hbm, ⟨30, _⟩ => ⟨S100000x64, .f32⟩
  | .hbm, ⟨31, _⟩ => ⟨S1x64, .f32⟩
  | .hbm, ⟨32, _⟩ => ⟨S100000x64, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x64, .f32⟩
  | .hbm, ⟨42, _⟩ => ⟨S_, .f32⟩
  | .hbm, ⟨43, _⟩ => ⟨S100000x64, .f32⟩
  | .hbm, ⟨44, _⟩ => ⟨S1600000x1, .i32⟩
  | .hbm, ⟨45, _⟩ => ⟨S100000x64, .f32⟩
  | .hbm, ⟨46, _⟩ => ⟨S1x64, .f32⟩
  | .hbm, ⟨47, _⟩ => ⟨S1x64, .f32⟩
  | .hbm, ⟨48, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S10000x1, .f32⟩
  | .local _ .vmem, ⟨5, _⟩ => ⟨S10000x1, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x1, .f32⟩
  | .local _ .vmem, ⟨16, _⟩ => ⟨S10000x1, .f32⟩
  | .local _ .vmem, ⟨17, _⟩ => ⟨S64x64, .f32⟩
  | .local _ .vmem, ⟨18, _⟩ => ⟨S64x64, .f32⟩
  | .local _ .vmem, ⟨19, _⟩ => ⟨S1x64, .f32⟩
  | .local _ .vmem, ⟨20, _⟩ => ⟨S64x64, .f32⟩
  | .local _ .vmem, ⟨21, _⟩ => ⟨S1x64, .f32⟩
  | .local _ .vmem, ⟨22, _⟩ => ⟨S10000x64, .f32⟩
  | .local _ .vmem, ⟨23, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_cst : Ref sig .tc := ⟨.hbm, 11, rfl⟩
abbrev main_call0_v0 : Ref sig .tc := ⟨.hbm, 12, rfl⟩
abbrev main_call0_cst_0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c : Ref sig .tc := ⟨.hbm, 18, rfl⟩
abbrev main_call0_v5 : Ref sig .tc := ⟨.hbm, 19, rfl⟩
abbrev main_call0_v6 : Ref sig .tc := ⟨.hbm, 20, rfl⟩
abbrev main_call0_c_1 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_cst_2 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_v15 : Ref sig .tc := ⟨.hbm, 31, rfl⟩
abbrev main_call0_v16 : Ref sig .tc := ⟨.hbm, 32, rfl⟩
abbrev main_call0_c_3 : Ref sig .tc := ⟨.hbm, 33, rfl⟩
abbrev main_call0_v17 : Ref sig .tc := ⟨.hbm, 34, rfl⟩
abbrev main_call0_v18 : Ref sig .tc := ⟨.hbm, 35, rfl⟩
abbrev main_call0_c_4 : Ref sig .tc := ⟨.hbm, 36, rfl⟩
abbrev main_call0_v19 : Ref sig .tc := ⟨.hbm, 37, rfl⟩
abbrev main_call0_v20 : Ref sig .tc := ⟨.hbm, 38, rfl⟩
abbrev main_call0_v21 : Ref sig .tc := ⟨.hbm, 39, rfl⟩
abbrev main_call0_v22 : Ref sig .tc := ⟨.hbm, 40, rfl⟩
abbrev main_call0_v23 : Ref sig .tc := ⟨.hbm, 41, rfl⟩
abbrev main_call0_cst_5 : Ref sig .tc := ⟨.hbm, 42, rfl⟩
abbrev main_call0_v24 : Ref sig .tc := ⟨.hbm, 43, rfl⟩
abbrev main_call0_v25 : Ref sig .tc := ⟨.hbm, 44, rfl⟩
abbrev main_call0_v26 : Ref sig .tc := ⟨.hbm, 45, rfl⟩
abbrev main_call0_v27 : Ref sig .tc := ⟨.hbm, 46, rfl⟩
abbrev main_call0_v28 : Ref sig .tc := ⟨.hbm, 47, rfl⟩
abbrev main_v0 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S10000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S100000x64.size a
  hwx0_6 : ∀ i : grid0.Coords, EltTy.bits .f32 = 32 ∨ (Rect.block (s := S100000x64) S10000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S10000x64.size a ≤ S100000x64.size a
  hwx1_8 : ∀ i : grid1.Coords, EltTy.bits .f32 = 32 ∨ (Rect.block (s := S100000x64) S10000x64.size (cc1_transform_8 i) (hinb1_8 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v14) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v4) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v15) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v16) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_call0_v16) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v26) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v4) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v27) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_call0_v28) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v0) S10000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .f32⟩
  | .hbm, ⟨20, _⟩ => ⟨S_, .f32⟩
  | .hbm, ⟨21, _⟩ => ⟨S100000x64, .f32⟩
  | .hbm, ⟨22, _⟩ => ⟨S1600000x1, .i32⟩
  | .hbm, ⟨23, _⟩ => ⟨S100000x64, .f32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x64, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S100000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S_, .f32⟩
  | .hbm, ⟨56, _⟩ => ⟨S1600000, .f32⟩
  | .hbm, ⟨57, _⟩ => ⟨S_, .f32⟩
  | .hbm, ⟨58, _⟩ => ⟨S100000, .f32⟩
  | .hbm, ⟨59, _⟩ => ⟨S1600000x1, .i32⟩
  | .hbm, ⟨60, _⟩ => ⟨S100000, .f32⟩
  | .hbm, ⟨61, _⟩ => ⟨S_, .f32⟩
  | .hbm, ⟨62, _⟩ => ⟨S100000, .f32⟩
  | .hbm, ⟨63, _⟩ => ⟨S100000, .f32⟩
  | .hbm, ⟨64, _⟩ => ⟨S100000x1, .f32⟩
  | .hbm, ⟨65, _⟩ => ⟨S100000x64, .f32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.FinalContents.lean ====
/-
  The idealized kernel's run with the result array NAMED.

  The program is four segments: a stretch of host operations, the first launch, a second stretch, the second launch.
  Its frame run threads the buffer contents through those segments; at the return every buffer the thread state holds
  is at the last boundary's contents.  Read at the result buffer, which is the second launch's output window, that is
  the array the second launch's write-backs leave: the fold of its ten blocks.  Every argument is, as in the frame, what
  the launch memory held.
-/
import proofs.«156420_j55009941128032_2_alg».proof.Proof.Gen.KernelIdeal.Frame

set_option maxRecDepth 16384

noncomputable section

namespace Cert.KernelIdeal.FinalContents

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the array the
    second launch's ten write-backs leave (from the contents that launch is entered with) and every argument as
    launched. -/
theorem run_contents : θ_run defs (onTc (τ := τ) (main (F := F))) ⟨m, fun _ => 0, ρ⟩ (fun r => ∀ c : Dev nD,
      r.2.mem ((c.tc : Thread nD τ).loc main_v0) = (dat1 (V3 m ρ) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v0 (by decide))).trans (W4_arr m ρ c 8),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.FinalContents

end
-- ==== Proof.Spec.lean ====
/-
  One graph-convolution layer and the closing linear map, entry by entry.

  For node r and output feature j a layer's entry is

      ( Σ_k x(r,k) · Ws(k,j)  +  Σ_k ( msg(r,k) / max(deg(r), 1) ) · Wn(k,j) )  +  b(j) :

  the node's own features through the self weights, plus the MEAN of its in-neighbours' features (their sum divided by
  the in-degree, a node without in-neighbours dividing by one) through the neighbour weights, plus the bias.  The degree
  comes as a column (one entry per node), the bias as a row.  The closing map's entry is  Σ_k h(r,k) · W(k,j) + b(j).
  An entry of row r reads only row r of the node arrays: rows can be computed a block at a time.
-/
import Idealize.ShloMosaic.Lib.ValueIdx
import Idealize.ShloMosaic.PureOps.Ideal

noncomputable section

open scoped BigOperators

namespace Idealize.ShloMosaic.SageSpec

open Idealize.ShloMosaic Idealize.ShloMosaic.ValueIdx

/-- The number one, as the single-precision word both programs spell it with. -/
abbrev one : EReal := Ideal.ofBits .f32 0x3F800000#32

/-- A layer's entry at node `r`, feature `j`. -/
def layerAt {n : ℕ} (x msg : (⟨2, ![n, 64]⟩ : Shape).Idx → EReal) (deg : (⟨2, ![n, 1]⟩ : Shape).Idx → EReal)
    (Ws Wn : (⟨2, ![64, 64]⟩ : Shape).Idx → EReal) (b : (⟨2, ![1, 64]⟩ : Shape).Idx → EReal) (r : Fin n) (j : Fin 64) : EReal :=
  ((∑ k : Fin 64, x (ix2 r k) * Ws (ix2 k j))
    + ∑ k : Fin 64, Ideal.div (msg (ix2 r k)) (max (deg (ix2 r (0 : Fin 1))) one) * Wn (ix2 k j))
    + b (ix2 (0 : Fin 1) j)

/-- A layer, as one array. -/
def layer {n : ℕ} (x msg : (⟨2, ![n, 64]⟩ : Shape).Idx → EReal) (deg : (⟨2, ![n, 1]⟩ : Shape).Idx → EReal)
    (Ws Wn : (⟨2, ![64, 64]⟩ : Shape).Idx → EReal) (b : (⟨2, ![1, 64]⟩ : Shape).Idx → EReal) :
    (⟨2, ![n, 64]⟩ : Shape).Idx → EReal :=
  fun i => layerAt x msg deg Ws Wn b (i 0) (i 1)

theorem layer_apply {n : ℕ} (x msg : (⟨2, ![n, 64]⟩ : Shape).Idx → EReal) (deg : (⟨2, ![n, 1]⟩ : Shape).Idx → EReal)
    (Ws Wn : (⟨2, ![64, 64]⟩ : Shape).Idx → EReal) (b : (⟨2, ![1, 64]⟩ : Shape).Idx → EReal) (r : Fin n) (j : Fin 64) :
    layer x msg deg Ws Wn b (ix2 r j) = layerAt x msg deg Ws Wn b r j := rfl

/-- The closing linear map's entry at node `r`, feature `j`. -/
def fcAt {n : ℕ} (h : (⟨2, ![n, 64]⟩ : Shape).Idx → EReal) (W : (⟨2, ![64, 64]⟩ : Shape).Idx → EReal)
    (b : (⟨2, ![1, 64]⟩ : Shape).Idx → EReal) (r : Fin n) (j : Fin 64) : EReal :=
  (∑ k : Fin 64, h (ix2 r k) * W (ix2 k j)) + b (ix2 (0 : Fin 1) j)

/-- A layer followed by the closing linear map, as one array. -/
def fcLayer {n : ℕ} (x msg : (⟨2, ![n, 64]⟩ : Shape).Idx → EReal) (deg : (⟨2, ![n, 1]⟩ : Shape).Idx → EReal)
    (Ws Wn : (⟨2, ![64, 64]⟩ : Shape).Idx → EReal) (b : (⟨2, ![1, 64]⟩ : Shape).Idx → EReal)
    (Wfc : (⟨2, ![64, 64]⟩ : Shape).Idx → EReal) (bfc : (⟨2, ![1, 64]⟩ : Shape).Idx → EReal) :
    (⟨2, ![n, 64]⟩ : Shape).Idx → EReal :=
  fun i => fcAt (layer x msg deg Ws Wn b) Wfc bfc (i 0) (i 1)

theorem fcLayer_apply {n : ℕ} (x msg : (⟨2, ![n, 64]⟩ : Shape).Idx → EReal) (deg : (⟨2, ![n, 1]⟩ : Shape).Idx → EReal)
    (Ws Wn : (⟨2, ![64, 64]⟩ : Shape).Idx → EReal) (b : (⟨2, ![1, 64]⟩ : Shape).Idx → EReal)
    (Wfc : (⟨2, ![64, 64]⟩ : Shape).Idx → EReal) (bfc : (⟨2, ![1, 64]⟩ : Shape).Idx → EReal) (r : Fin n) (j : Fin 64) :
    fcLayer x msg deg Ws Wn b Wfc bfc (ix2 r j) = fcAt (layer x msg deg Ws Wn b) Wfc bfc r j := rfl

/-- A layer's entry at row `p` of one family of arrays is its entry at row `r` of another when row `p` of the first's node
    arrays is row `r` of the second's and the weights and bias agree: the entry reads nothing else. -/
theorem layerAt_of_rows {n n' : ℕ}
    (xb msgb : (⟨2, ![n, 64]⟩ : Shape).Idx → EReal) (degb : (⟨2, ![n, 1]⟩ : Shape).Idx → EReal)
    (x msg : (⟨2, ![n', 64]⟩ : Shape).Idx → EReal) (deg : (⟨2, ![n', 1]⟩ : Shape).Idx → EReal)
    (Wsb Wnb Ws Wn : (⟨2, ![64, 64]⟩ : Shape).Idx → EReal) (bb b : (⟨2, ![1, 64]⟩ : Shape).Idx → EReal)
    (p : Fin n) (r : Fin n') (j : Fin 64)
    (hx : ∀ k : Fin 64, xb (ix2 p k) = x (ix2 r k)) (hm : ∀ k : Fin 64, msgb (ix2 p k) = msg (ix2 r k))
    (hd : degb (ix2 p (0 : Fin 1)) = deg (ix2 r (0 : Fin 1)))
    (hWs : ∀ k : Fin 64, Wsb (ix2 k j) = Ws (ix2 k j)) (hWn : ∀ k : Fin 64, Wnb (ix2 k j) = Wn (ix2 k j))
    (hb : bb (ix2 (0 : Fin 1) j) = b (ix2 (0 : Fin 1) j)) :
    layerAt xb msgb degb Wsb Wnb bb p j = layerAt x msg deg Ws Wn b r j := by
  unfold layerAt
  rw [hd, hb]
  refine congrArg (· + b (ix2 (0 : Fin 1) j)) (congrArg₂ (· + ·) ?_ ?_)
  · exact Finset.sum_congr rfl fun k _ => by rw [hx k, hWs k]
  · exact Finset.sum_congr rfl fun k _ => by rw [hm k, hWn k]

/-- The closing map's entry at row `p` of one array is its entry at row `r` of another when those rows agree and the
    weights and bias agree. -/
theorem fcAt_of_rows {n n' : ℕ} (hb' : (⟨2, ![n, 64]⟩ : Shape).Idx → EReal) (h : (⟨2, ![n', 64]⟩ : Shape).Idx → EReal)
    (Wb W : (⟨2, ![64, 64]⟩ : Shape).Idx → EReal) (bb b : (⟨2, ![1, 64]⟩ : Shape).Idx → EReal)
    (p : Fin n) (r : Fin n') (j : Fin 64)
    (hh : ∀ k : Fin 64, hb' (ix2 p k) = h (ix2 r k)) (hW : ∀ k : Fin 64, Wb (ix2 k j) = W (ix2 k j))
    (hbias : bb (ix2 (0 : Fin 1) j) = b (ix2 (0 : Fin 1) j)) :
    fcAt hb' Wb bb p j = fcAt h W b r j := by
  unfold fcAt
  rw [hbias]
  exact congrArg (· + b (ix2 (0 : Fin 1) j)) (Finset.sum_congr rfl fun k _ => by rw [hh k, hW k])

end Idealize.ShloMosaic.SageSpec

end
-- ==== Proof.LibPlainMatmul.lean ====
/-
  A plain matrix product read at one entry.

  The matrix unit's contraction with dimension numbers "rows × contraction times contraction × columns"
  (left contracting axis 1, right contracting axis 0, no batch axis), accumulated into the zero splat, is at the
  ideal values the textbook product: entry (i, j) is the sum over the contraction coordinate k of
  l (i, k) · r (k, j).  The statement is over any dimension record whose six lists are those of the plain
  product, so it applies to a printed record whatever name it carries.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

/-- Entry (i, j) of an M×K by K×N `tpu.matmul` into the zero accumulator, at the ideal values: the sum over the
    K contraction coordinates of the left operand's row entry times the right operand's column entry. -/
theorem matmul_zero_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    matmul D prec l r (constant ⟨2, ![M, N]⟩ .f32 0x00000000#32) (ix2 i j)
      = ∑ k : Fin K, l (ix2 i k) * r (ix2 k j) := by
  obtain ⟨lc, rc, ln, rn, lb, rb, wf⟩ := D
  dsimp only at hlc hrc hln hrn hlb hrb
  subst hlc hrc hln hrn hlb hrb
  refine (Ideal.matmul_constant_zero_apply _ prec l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.PlainMatmul

end
-- ==== Proof.LibKeptColumn.lean ====
/-
  Two layout facts about a column kept after a row reduction (a sum with the reduced axis kept as a unit axis):
  a vector of length a cast to an [a, 1] column, and an [a, 1] column spread along the rows of an [a, b] array, each read
  at an index.
-/
import Idealize.ShloMosaic.Lib.Pipeline.Value
import Idealize.ShloMosaic.Lib.ValueIdx

noncomputable section

namespace Idealize.ShloMosaic.KeptColumn

open Idealize.ShloMosaic Idealize.ShloMosaic.ValueIdx

variable {α : Type}

/-- An `[a]` array cast to an `[a, 1]` column reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`: the unit axis is read at 0,
    the row axis at `p` (when `a = 1` the only row is row 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.KeptColumn

end
-- ==== Proof.BodyValue.lean ====
/-
  What each launch's body computes, entry by entry.

  The first body stores, for its block of rows, (x·Ws + (msg / max(deg, 1))·Wn) + b: two matrix products into zero
  accumulators, the operands rounded to half precision on the way in (no change to an ideal value), the degree column
  spread along the features, the bias row spread along the rows.  Read at row p, feature q, that is the layer's entry
  of the block's own rows.  The second body computes the same layer, rounds it, multiplies by the closing weights and
  adds the closing bias: the closing map's entry over the layer of the block's rows.
-/
import proofs.«156420_j55009941128032_2_alg».proof.Proof.Gen.KernelIdeal.Skeleton
import proofs.«156420_j55009941128032_2_alg».proof.Proof.Spec
import proofs.«156420_j55009941128032_2_alg».proof.Proof.LibPlainMatmul
import proofs.«156420_j55009941128032_2_alg».proof.Proof.LibKeptColumn
import Idealize.ShloMosaic.Lib.ValueLayout

noncomputable section

open scoped BigOperators

namespace Cert.KernelIdeal.BodyValue

open Cert.KernelIdeal Cert.KernelIdeal.Gen Idealize.ShloMosaic Idealize.ShloMosaic.ValueIdx Idealize.ShloMosaic.SageSpec
open Cert.KernelIdeal.Facts₀

/-- A block's product with a weight matrix, into the zero accumulator, at row `p`, feature `q`. -/
theorem mm_at (l : FVec Ideal S10000x64 .bf16) (r : FVec Ideal S64x64 .bf16) (p : Fin 10000) (q : Fin 64) :
    matmul dot_S10000x64_S64x64_S10000x64_1_0_0_1_n_n none l r (constant S10000x64 .f32 0x00000000#32) (ix2 p q)
      = ∑ k : Fin 64, l (ix2 p k) * r (ix2 k q) :=
  PlainMatmul.matmul_zero_apply dot_S10000x64_S64x64_S10000x64_1_0_0_1_n_n rfl rfl rfl rfl rfl rfl none l r p q

/-- The neighbour sum divided by the degree column (at least one) spread along the features, at row `p`, feature `k`. -/
theorem mean_at (x1 : Vec Ideal S10000x64 .f32) (x2 : Vec Ideal S10000x1 .f32) (h1 : S10000x64.ShapeCasts S10000x64)
    (h2 : S10000x1.ShapeCasts S10000x1) (hb : S10000x1.Broadcasts S10000x64) (p : Fin 10000) (k : Fin 64) :
    divf (shapeCast S10000x64 x1 h1)
        (broadcastTo S10000x64 (maximumf (shapeCast S10000x1 x2 h2) (broadcast S10000x1 (Scalar.ofBits (F := Ideal) .f32 0x3F800000#32))) hb)
        (ix2 p k)
      = Ideal.div (x1 (ix2 p k)) (max (x2 (ix2 p (0 : Fin 1))) one) := by
  rw [shapeCast_self, shapeCast_self]
  show Ideal.div (x1 (ix2 p k)) (broadcastTo S10000x64 (maximumf x2 (broadcast S10000x1 (Scalar.ofBits (F := Ideal) .f32 0x3F800000#32))) hb (ix2 p k)) = _
  rw [KeptColumn.broadcastTo_a1_ab_apply]
  rfl

/-- The bias row spread along the rows, at row `p`, feature `q`. -/
theorem bias_at (x5 : Vec Ideal S1x64 .f32) (h : S1x64.ShapeCasts S1x64) (hb : S1x64.Broadcasts S10000x64) (p : Fin 10000) (q : Fin 64) :
    broadcastTo S10000x64 (shapeCast S1x64 x5 h) hb (ix2 p q) = x5 (ix2 (0 : Fin 1) q) := by
  rw [shapeCast_self]
  exact broadcastTo_1b_ab_apply _ hb p q

/-- THE FIRST BODY's stored value at row `p`, feature `q` of its block: the layer's entry over the block's rows. -/
theorem pay0_at (x0 x1 : Vec Ideal S10000x64 .f32) (x2 : Vec Ideal S10000x1 .f32) (x3 x4 : Vec Ideal S64x64 .f32)
    (x5 : Vec Ideal S1x64 .f32) (p : Fin 10000) (q : Fin 64) :
    k0_pay1 (F := Ideal) x0 x1 x2 x3 x4 x5 (ix2 p q) = layerAt x0 x1 x2 x3 x4 x5 p q := by
  unfold k0_pay1 layerAt
  simp only [addf_apply]
  rw [mm_at, mm_at, bias_at]
  refine congrArg (· + x5 (ix2 (0 : Fin 1) q)) (congrArg₂ (· + ·) rfl ?_)
  refine Finset.sum_congr rfl fun k _ => congrArg (· * x4 (ix2 k q)) ?_
  exact mean_at x1 x2 _ _ _ p k

/-- THE SECOND BODY's stored value at row `p`, feature `q` of its block: the closing map's entry over the layer of the
    block's rows. -/
theorem pay1_at (x0 x1 : Vec Ideal S10000x64 .f32) (x2 : Vec Ideal S10000x1 .f32) (x3 x4 : Vec Ideal S64x64 .f32)
    (x5 : Vec Ideal S1x64 .f32) (x6 : Vec Ideal S64x64 .f32) (x7 : Vec Ideal S1x64 .f32) (p : Fin 10000) (q : Fin 64) :
    k1_pay1 (F := Ideal) x0 x1 x2 x3 x4 x5 x6 x7 (ix2 p q) = fcAt (layer x0 x1 x2 x3 x4 x5) x6 x7 p q := by
  unfold k1_pay1 fcAt
  simp only [addf_apply]
  rw [mm_at, bias_at]
  refine congrArg (· + x7 (ix2 (0 : Fin 1) q)) (Finset.sum_congr rfl fun k _ => congrArg (· * x6 (ix2 k q)) ?_)
  rw [layer_apply]
  unfold layerAt
  simp only [truncf_apply, addf_apply]
  rw [mm_at, mm_at, bias_at]
  refine congrArg (· + x5 (ix2 (0 : Fin 1) k)) (congrArg₂ (· + ·) ?_ ?_)
  · refine Finset.sum_congr rfl fun k' _ => congrArg (· * x3 (ix2 k' k)) ?_
    show shapeCast S10000x64 x0 _ (ix2 p k') = x0 (ix2 p k')
    rw [shapeCast_self]
  · refine Finset.sum_congr rfl fun k' _ => congrArg (· * x4 (ix2 k' k)) ?_
    exact mean_at x1 x2 _ _ _ p k'

end Cert.KernelIdeal.BodyValue

end
-- ==== Proof.RegionValue.lean ====
/-
  Each launch's output array as one function of the arrays the launch finds.

  Both launches walk ten grid points; point t stages rows 10000·t … 10000·t + 9999 of the three node arrays (own
  features, neighbour sums, degree column), the whole of each weight matrix and bias row, and writes back rows
  10000·t … 10000·t + 9999 of the output.  What the body stores at row p of its block is the layer's entry (for the
  second launch: the closing map over the layer) of the block's rows, and an entry of row r reads only row r of the node
  arrays; so point t writes back exactly block t of ONE whole-array function of the arrays as found.  The ten blocks
  tile the 100000 rows, hence after the last write-back the output array IS that function.
-/
import proofs.«156420_j55009941128032_2_alg».proof.Proof.Gen.KernelIdeal.Frame
import proofs.«156420_j55009941128032_2_alg».proof.Proof.BodyValue
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.SageSpec Cert.KernelIdeal.BodyValue

-- the TensorCore's buffer contents when a launch is entered
variable (V : (c : Dev nD) → (b : Ref sig .tc) → Buf (Elt Ideal) ((c : Thread nD τ).loc b))

theorem hz : (![0, 0] : Fin 2 → Nat) = fun _ => 0 := funext fun a => by fin_cases a <;> rfl

/-! ## The first launch -/

/-- The printed index maps, decided over the ten points: the node arrays' and the output's block index is the point's
    number on the row axis and zero on the feature axis; the weights' and the bias's is zero. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of point `t`'s block of the node features is row `10000·t + p` of the array. -/
theorem read0_0 (c : Dev nD) (t : Fin cfg0.N) (p : Fin 10000) (k : Fin 64) (r : Fin 100000) (hr : r.val = t.val * 10000 + p.val) :
    iblk0 V c 0 t (ix2 p k) = V c main_arg0 (ix2 r k) := by
  obtain ⟨e0, e1, -⟩ := idx_facts0 t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 10000 + 1 * p.val = r.val; omega
  | ⟨1, _⟩ => show win0_0.index t (1 : Fin 2) * 64 + 1 * k.val = k.val; omega

/-- The same for the neighbour sums. -/
theorem read0_1 (c : Dev nD) (t : Fin cfg0.N) (p : Fin 10000) (k : Fin 64) (r : Fin 100000) (hr : r.val = t.val * 10000 + p.val) :
    iblk0 V c 1 t (ix2 p k) = V c main_call0_v14 (ix2 r k) := by
  obtain ⟨-, -, e0, e1, -⟩ := idx_facts0 t
  show V c main_call0_v14 (((cfg0.win 1).blk t).view.emb (ix2 p k)) = V c main_call0_v14 (ix2 r k)
  refine congrArg (V c main_call0_v14) (funext fun a => Fin.ext ?_)
  match a with
  | ⟨0, _⟩ => show win0_1.index t (0 : Fin 2) * 10000 + 1 * p.val = r.val; omega
  | ⟨1, _⟩ => show win0_1.index t (1 : Fin 2) * 64 + 1 * k.val = k.val; omega

/-- The same for the degree column. -/
theorem read0_2 (c : Dev nD) (t : Fin cfg0.N) (p : Fin 10000) (r : Fin 100000) (hr : r.val = t.val * 10000 + p.val) :
    iblk0 V c 2 t (ix2 p (0 : Fin 1)) = V c main_call0_v4 (ix2 r (0 : Fin 1)) := by
  obtain ⟨-, -, -, -, e0, e1, -⟩ := idx_facts0 t
  show V c main_call0_v4 (((cfg0.win 2).blk t).view.emb (ix2 p (0 : Fin 1))) = V c main_call0_v4 (ix2 r (0 : Fin 1))
  refine congrArg (V c main_call0_v4) (funext fun a => Fin.ext ?_)
  match a with
  | ⟨0, _⟩ => show win0_2.index t (0 : Fin 2) * 10000 + 1 * p.val = r.val; omega
  | ⟨1, _⟩ => show win0_2.index t (1 : Fin 2) * 1 + 1 * 0 = 0; omega

/-- Every point's block of the self weights is the whole matrix. -/
theorem read0_3 (c : Dev nD) (t : Fin cfg0.N) (k q : Fin 64) :
    iblk0 V c 3 t (ix2 k q) = V c main_arg3 (ix2 k q) := by
  obtain ⟨-, -, -, -, -, -, e0, e1, -⟩ := idx_facts0 t
  show V c main_arg3 (((cfg0.win 3).blk t).view.emb (ix2 k q)) = V c main_arg3 (ix2 k q)
  refine congrArg (V c main_arg3) (funext fun a => Fin.ext ?_)
  match a with
  | ⟨0, _⟩ => show win0_3.index t (0 : Fin 2) * 64 + 1 * k.val = k.val; omega
  | ⟨1, _⟩ => show win0_3.index t (1 : Fin 2) * 64 + 1 * q.val = q.val; omega

/-- Every point's block of the neighbour weights is the whole matrix. -/
theorem read0_4 (c : Dev nD) (t : Fin cfg0.N) (k q : Fin 64) :
    iblk0 V c 4 t (ix2 k q) = V c main_arg4 (ix2 k q) := by
  obtain ⟨-, -, -, -, -, -, -, -, e0, e1, -⟩ := idx_facts0 t
  show V c main_arg4 (((cfg0.win 4).blk t).view.emb (ix2 k q)) = V c main_arg4 (ix2 k q)
  refine congrArg (V c main_arg4) (funext fun a => Fin.ext ?_)
  match a with
  | ⟨0, _⟩ => show win0_4.index t (0 : Fin 2) * 64 + 1 * k.val = k.val; omega
  | ⟨1, _⟩ => show win0_4.index t (1 : Fin 2) * 64 + 1 * q.val = q.val; omega

/-- Every point's block of the bias row is the whole row. -/
theorem read0_5 (c : Dev nD) (t : Fin cfg0.N) (q : Fin 64) :
    iblk0 V c 5 t (ix2 (0 : Fin 1) q) = V c main_call0_v15 (ix2 (0 : Fin 1) q) := by
  obtain ⟨-, -, -, -, -, -, -, -, -, -, e0, e1, -⟩ := idx_facts0 t
  show V c main_call0_v15 (((cfg0.win 5).blk t).view.emb (ix2 (0 : Fin 1) q)) = V c main_call0_v15 (ix2 (0 : Fin 1) q)
  refine congrArg (V c main_call0_v15) (funext fun a => Fin.ext ?_)
  match a with
  | ⟨0, _⟩ => show win0_5.index t (0 : Fin 2) * 1 + 1 * 0 = 0; omega
  | ⟨1, _⟩ => show win0_5.index t (1 : Fin 2) * 64 + 1 * q.val = q.val; omega

/-- The first launch's output, as one function of the arrays the launch finds. -/
abbrev whole0 (c : Dev nD) : S100000x64.Idx → EReal :=
  layer (V c main_arg0) (V c main_call0_v14) (V c main_call0_v4) (V c main_arg3) (V c main_arg4) (V c main_call0_v15)

/-- WHAT POINT `t` WRITES BACK is block `t` of that function. -/
theorem flushed0_eq (c : Dev nD) (t : Fin cfg0.N) :
    (dat0 V c).flushed 6 t = ((cfg0.win 6).blk t).view.read (Elt Ideal) (whole0 V c) := by
  show (cfg0.win 6).cut (grid0.coords t) ((dat0 V c).after 6 t) = _
  rw [after0_6]
  unfold out0_6
  rw [View.canon_unit_zero hz]
  simp only [View.ld_unit_zero (S := S10000x64) hz, View.ld_unit_zero (S := S10000x1) hz, View.ld_unit_zero (S := S64x64) hz,
    View.ld_unit_zero (S := S1x64) hz]
  funext j
  obtain ⟨p, q, rfl⟩ : ∃ (p : Fin 10000) (q : Fin 64), j = ix2 p q := ⟨j 0, j 1, eq_ix2 j⟩
  have ht : t.val < 10 := Nat.lt_of_lt_of_eq t.isLt N_0
  obtain ⟨-, -, -, -, -, -, -, -, -, -, -, -, e0, e1⟩ := idx_facts0 t
  have hemb : ((cfg0.win 6).blk t).view.emb (ix2 p q) = ix2 (⟨t.val * 10000 + p.val, by omega⟩ : Fin 100000) q :=
    funext fun a => Fin.ext (by
      match a with
      | ⟨0, _⟩ => show win0_6.index t (0 : Fin 2) * 10000 + 1 * p.val = t.val * 10000 + p.val; omega
      | ⟨1, _⟩ => show win0_6.index t (1 : Fin 2) * 64 + 1 * q.val = q.val; omega)
  refine (pay0_at (iblk0 V c 0 t) (iblk0 V c 1 t) (iblk0 V c 2 t) (iblk0 V c 3 t) (iblk0 V c 4 t) (iblk0 V c 5 t) p q).trans ?_
  refine Eq.trans ?_ (congrArg (whole0 V c) hemb).symm
  exact layerAt_of_rows (iblk0 V c 0 t) (iblk0 V c 1 t) (iblk0 V c 2 t) (V c main_arg0) (V c main_call0_v14) (V c main_call0_v4)
    (iblk0 V c 3 t) (iblk0 V c 4 t) (V c main_arg3) (V c main_arg4) (iblk0 V c 5 t) (V c main_call0_v15) p ⟨t.val * 10000 + p.val, by omega⟩ q
    (fun k => read0_0 V c t p k _ rfl) (fun k => read0_1 V c t p k _ rfl) (read0_2 V c t p _ rfl)
    (fun k => read0_3 V c t k q) (fun k => read0_4 V c t k q) (read0_5 V c t q)

/-- An index of the output array is in point `t`'s block iff each coordinate is in the block's range on its axis. -/
theorem mem_blk0 (t : Fin cfg0.N) (i : S100000x64.Idx) :
    i ∈ ((cfg0.win 6).blk t).view.set ↔ ∀ a : Fin 2, win0_6.index t a * S10000x64.size a ≤ (i a).val ∧ (i a).val < win0_6.index t a * S10000x64.size a + S10000x64.size a := by
  show i ∈ ((View.whole main_call0_v16).slice (win0_6.rect t)).set ↔ _
  rw [View.set_slice_whole, Rect.mem_set_unit]
  exact Iff.rfl

/-- Every row is in the block of the point numbered by its ten-thousands. -/
theorem cover0 (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have hN : (i 0).val / 10000 < cfg0.N := by rw [show cfg0.N = 10 from N_0]; omega
  obtain ⟨-, -, -, -, -, -, -, -, -, -, -, -, e0, e1⟩ := idx_facts0 ⟨(i 0).val / 10000, hN⟩
  have e0' : win0_6.index ⟨(i 0).val / 10000, hN⟩ (0 : Fin 2) = (i 0).val / 10000 := e0
  refine ⟨⟨(i 0).val / 10000, hN⟩, flush0_6 _, ?_⟩
  rw [mem_blk0]
  intro a
  match a with
  | ⟨0, _⟩ =>
    show win0_6.index ⟨(i 0).val / 10000, hN⟩ (0 : Fin 2) * 10000 ≤ (i 0).val
      ∧ (i 0).val < win0_6.index ⟨(i 0).val / 10000, hN⟩ (0 : Fin 2) * 10000 + 10000
    omega
  | ⟨1, _⟩ =>
    show win0_6.index ⟨(i 0).val / 10000, hN⟩ (1 : Fin 2) * 64 ≤ (i 1).val
      ∧ (i 1).val < win0_6.index ⟨(i 0).val / 10000, hN⟩ (1 : Fin 2) * 64 + 64
    omega

/-- THE FIRST LAUNCH'S OUTPUT ARRAY after its ten write-backs: the layer of the arrays the launch finds. -/
theorem final0 (c : Dev nD) : (dat0 V c).arrAt 6 cfg0.N = whole0 V c :=
  (dat0 V c).arrAt_eq_of_cover 6 (whole0 V c) (fun t _ => flushed0_eq V c t) cover0

end Cert.KernelIdeal.RegionValue

end
-- ==== Proof.Region1Value.lean ====
/-
  The second launch's output array as one function of the arrays the launch finds.

  As in the first launch, point t of ten stages rows 10000·t … 10000·t + 9999 of the node arrays (the first layer's
  output, its neighbour sums, the degree column), every weight matrix and bias row whole, and writes back rows
  10000·t … 10000·t + 9999.  The body stores the closing linear map over the second layer of the block's rows, and an
  entry of row r reads only row r of the node arrays: point t writes back block t of one whole-array function, and the
  ten blocks tile the 100000 rows.
-/
import proofs.«156420_j55009941128032_2_alg».proof.Proof.Gen.KernelIdeal.Frame
import proofs.«156420_j55009941128032_2_alg».proof.Proof.BodyValue
import Idealize.ShloMosaic.Lib.Pipeline.Value

set_option maxRecDepth 16384

noncomputable section

namespace Cert.KernelIdeal.Region1Value

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.SageSpec Cert.KernelIdeal.BodyValue

-- the TensorCore's buffer contents when the launch is entered
variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the ten points: the node arrays' and the output's block index is the point's
    number on the row axis and zero on the feature axis; the weights' and the biases' is zero. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- Row `p` of point `t`'s block of the first layer's output is row `10000·t + p` of the array. -/
theorem read1_0 (c : Dev nD) (t : Fin cfg1.N) (p : Fin 10000) (k : Fin 64) (r : Fin 100000) (hr : r.val = t.val * 10000 + p.val) :
    iblk1 V c 0 t (ix2 p k) = V c main_call0_v16 (ix2 r k) := by
  obtain ⟨e0, e1, -⟩ := idx_facts1 t
  show V c main_call0_v16 (((cfg1.win 0).blk t).view.emb (ix2 p k)) = V c main_call0_v16 (ix2 r k)
  refine congrArg (V c main_call0_v16) (funext fun a => Fin.ext ?_)
  match a with
  | ⟨0, _⟩ => show win1_0.index t (0 : Fin 2) * 10000 + 1 * p.val = r.val; omega
  | ⟨1, _⟩ => show win1_0.index t (1 : Fin 2) * 64 + 1 * k.val = k.val; omega

/-- The same for the neighbour sums. -/
theorem read1_1 (c : Dev nD) (t : Fin cfg1.N) (p : Fin 10000) (k : Fin 64) (r : Fin 100000) (hr : r.val = t.val * 10000 + p.val) :
    iblk1 V c 1 t (ix2 p k) = V c main_call0_v26 (ix2 r k) := by
  obtain ⟨-, -, e0, e1, -⟩ := idx_facts1 t
  show V c main_call0_v26 (((cfg1.win 1).blk t).view.emb (ix2 p k)) = V c main_call0_v26 (ix2 r k)
  refine congrArg (V c main_call0_v26) (funext fun a => Fin.ext ?_)
  match a with
  | ⟨0, _⟩ => show win1_1.index t (0 : Fin 2) * 10000 + 1 * p.val = r.val; omega
  | ⟨1, _⟩ => show win1_1.index t (1 : Fin 2) * 64 + 1 * k.val = k.val; omega

/-- The same for the degree column. -/
theorem read1_2 (c : Dev nD) (t : Fin cfg1.N) (p : Fin 10000) (r : Fin 100000) (hr : r.val = t.val * 10000 + p.val) :
    iblk1 V c 2 t (ix2 p (0 : Fin 1)) = V c main_call0_v4 (ix2 r (0 : Fin 1)) := by
  obtain ⟨-, -, -, -, e0, e1, -⟩ := idx_facts1 t
  show V c main_call0_v4 (((cfg1.win 2).blk t).view.emb (ix2 p (0 : Fin 1))) = V c main_call0_v4 (ix2 r (0 : Fin 1))
  refine congrArg (V c main_call0_v4) (funext fun a => Fin.ext ?_)
  match a with
  | ⟨0, _⟩ => show win1_2.index t (0 : Fin 2) * 10000 + 1 * p.val = r.val; omega
  | ⟨1, _⟩ => show win1_2.index t (1 : Fin 2) * 1 + 1 * 0 = 0; omega

/-- Every point's block of the self weights is the whole matrix. -/
theorem read1_3 (c : Dev nD) (t : Fin cfg1.N) (k q : Fin 64) :
    iblk1 V c 3 t (ix2 k q) = V c main_arg6 (ix2 k q) := by
  obtain ⟨-, -, -, -, -, -, e0, e1, -⟩ := idx_facts1 t
  show V c main_arg6 (((cfg1.win 3).blk t).view.emb (ix2 k q)) = V c main_arg6 (ix2 k q)
  refine congrArg (V c main_arg6) (funext fun a => Fin.ext ?_)
  match a with
  | ⟨0, _⟩ => show win1_3.index t (0 : Fin 2) * 64 + 1 * k.val = k.val; omega
  | ⟨1, _⟩ => show win1_3.index t (1 : Fin 2) * 64 + 1 * q.val = q.val; omega

/-- Every point's block of the neighbour weights is the whole matrix. -/
theorem read1_4 (c : Dev nD) (t : Fin cfg1.N) (k q : Fin 64) :
    iblk1 V c 4 t (ix2 k q) = V c main_arg7 (ix2 k q) := by
  obtain ⟨-, -, -, -, -, -, -, -, e0, e1, -⟩ := idx_facts1 t
  show V c main_arg7 (((cfg1.win 4).blk t).view.emb (ix2 k q)) = V c main_arg7 (ix2 k q)
  refine congrArg (V c main_arg7) (funext fun a => Fin.ext ?_)
  match a with
  | ⟨0, _⟩ => show win1_4.index t (0 : Fin 2) * 64 + 1 * k.val = k.val; omega
  | ⟨1, _⟩ => show win1_4.index t (1 : Fin 2) * 64 + 1 * q.val = q.val; omega

/-- Every point's block of the layer's bias row is the whole row. -/
theorem read1_5 (c : Dev nD) (t : Fin cfg1.N) (q : Fin 64) :
    iblk1 V c 5 t (ix2 (0 : Fin 1) q) = V c main_call0_v27 (ix2 (0 : Fin 1) q) := by
  obtain ⟨-, -, -, -, -, -, -, -, -, -, e0, e1, -⟩ := idx_facts1 t
  show V c main_call0_v27 (((cfg1.win 5).blk t).view.emb (ix2 (0 : Fin 1) q)) = V c main_call0_v27 (ix2 (0 : Fin 1) q)
  refine congrArg (V c main_call0_v27) (funext fun a => Fin.ext ?_)
  match a with
  | ⟨0, _⟩ => show win1_5.index t (0 : Fin 2) * 1 + 1 * 0 = 0; omega
  | ⟨1, _⟩ => show win1_5.index t (1 : Fin 2) * 64 + 1 * q.val = q.val; omega

/-- Every point's block of the closing weights is the whole matrix. -/
theorem read1_6 (c : Dev nD) (t : Fin cfg1.N) (k q : Fin 64) :
    iblk1 V c 6 t (ix2 k q) = V c main_arg9 (ix2 k q) := by
  obtain ⟨-, -, -, -, -, -, -, -, -, -, -, -, e0, e1, -⟩ := idx_facts1 t
  show V c main_arg9 (((cfg1.win 6).blk t).view.emb (ix2 k q)) = V c main_arg9 (ix2 k q)
  refine congrArg (V c main_arg9) (funext fun a => Fin.ext ?_)
  match a with
  | ⟨0, _⟩ => show win1_6.index t (0 : Fin 2) * 64 + 1 * k.val = k.val; omega
  | ⟨1, _⟩ => show win1_6.index t (1 : Fin 2) * 64 + 1 * q.val = q.val; omega

/-- Every point's block of the closing bias row is the whole row. -/
theorem read1_7 (c : Dev nD) (t : Fin cfg1.N) (q : Fin 64) :
    iblk1 V c 7 t (ix2 (0 : Fin 1) q) = V c main_call0_v28 (ix2 (0 : Fin 1) q) := by
  obtain ⟨-, -, -, -, -, -, -, -, -, -, -, -, -, -, e0, e1, -⟩ := idx_facts1 t
  show V c main_call0_v28 (((cfg1.win 7).blk t).view.emb (ix2 (0 : Fin 1) q)) = V c main_call0_v28 (ix2 (0 : Fin 1) q)
  refine congrArg (V c main_call0_v28) (funext fun a => Fin.ext ?_)
  match a with
  | ⟨0, _⟩ => show win1_7.index t (0 : Fin 2) * 1 + 1 * 0 = 0; omega
  | ⟨1, _⟩ => show win1_7.index t (1 : Fin 2) * 64 + 1 * q.val = q.val; omega

/-- The second launch's output, as one function of the arrays the launch finds. -/
abbrev whole1 (c : Dev nD) : S100000x64.Idx → EReal :=
  fcLayer (V c main_call0_v16) (V c main_call0_v26) (V c main_call0_v4) (V c main_arg6) (V c main_arg7) (V c main_call0_v27)
    (V c main_arg9) (V c main_call0_v28)

/-- WHAT POINT `t` WRITES BACK is block `t` of that function. -/
theorem flushed1_eq (c : Dev nD) (t : Fin cfg1.N) :
    (dat1 V c).flushed 8 t = ((cfg1.win 8).blk t).view.read (Elt Ideal) (whole1 V c) := by
  show (cfg1.win 8).cut (grid1.coords t) ((dat1 V c).after 8 t) = _
  rw [after1_8]
  unfold out1_8
  rw [View.canon_unit_zero hz]
  simp only [View.ld_unit_zero (S := S10000x64) hz, View.ld_unit_zero (S := S10000x1) hz, View.ld_unit_zero (S := S64x64) hz,
    View.ld_unit_zero (S := S1x64) hz]
  funext j
  obtain ⟨p, q, rfl⟩ : ∃ (p : Fin 10000) (q : Fin 64), j = ix2 p q := ⟨j 0, j 1, eq_ix2 j⟩
  have ht : t.val < 10 := Nat.lt_of_lt_of_eq t.isLt N_1
  obtain ⟨-, -, -, -, -, -, -, -, -, -, -, -, -, -, -, -, e0, e1⟩ := idx_facts1 t
  have hemb : ((cfg1.win 8).blk t).view.emb (ix2 p q) = ix2 (⟨t.val * 10000 + p.val, by omega⟩ : Fin 100000) q :=
    funext fun a => Fin.ext (by
      match a with
      | ⟨0, _⟩ => show win1_8.index t (0 : Fin 2) * 10000 + 1 * p.val = t.val * 10000 + p.val; omega
      | ⟨1, _⟩ => show win1_8.index t (1 : Fin 2) * 64 + 1 * q.val = q.val; omega)
  refine (pay1_at (iblk1 V c 0 t) (iblk1 V c 1 t) (iblk1 V c 2 t) (iblk1 V c 3 t) (iblk1 V c 4 t) (iblk1 V c 5 t) (iblk1 V c 6 t)
    (iblk1 V c 7 t) p q).trans ?_
  refine Eq.trans ?_ (congrArg (whole1 V c) hemb).symm
  exact fcAt_of_rows
    (layer (iblk1 V c 0 t) (iblk1 V c 1 t) (iblk1 V c 2 t) (iblk1 V c 3 t) (iblk1 V c 4 t) (iblk1 V c 5 t))
    (layer (V c main_call0_v16) (V c main_call0_v26) (V c main_call0_v4) (V c main_arg6) (V c main_arg7) (V c main_call0_v27))
    (iblk1 V c 6 t) (V c main_arg9) (iblk1 V c 7 t) (V c main_call0_v28) p ⟨t.val * 10000 + p.val, by omega⟩ q
    (fun k => layerAt_of_rows (iblk1 V c 0 t) (iblk1 V c 1 t) (iblk1 V c 2 t) (V c main_call0_v16) (V c main_call0_v26) (V c main_call0_v4)
      (iblk1 V c 3 t) (iblk1 V c 4 t) (V c main_arg6) (V c main_arg7) (iblk1 V c 5 t) (V c main_call0_v27) p ⟨t.val * 10000 + p.val, by omega⟩ k
      (fun k' => read1_0 V c t p k' _ rfl) (fun k' => read1_1 V c t p k' _ rfl) (read1_2 V c t p _ rfl)
      (fun k' => read1_3 V c t k' k) (fun k' => read1_4 V c t k' k) (read1_5 V c t k))
    (fun k => read1_6 V c t k q) (read1_7 V c t q)

/-- An index of the output array is in point `t`'s block iff each coordinate is in the block's range on its axis. -/
theorem mem_blk1 (t : Fin cfg1.N) (i : S100000x64.Idx) :
    i ∈ ((cfg1.win 8).blk t).view.set ↔ ∀ a : Fin 2, win1_8.index t a * S10000x64.size a ≤ (i a).val ∧ (i a).val < win1_8.index t a * S10000x64.size a + S10000x64.size a := by
  show i ∈ ((View.whole main_v0).slice (win1_8.rect t)).set ↔ _
  rw [View.set_slice_whole, Rect.mem_set_unit]
  exact Iff.rfl

/-- Every row is in the block of the point numbered by its ten-thousands. -/
theorem cover1 (i : S100000x64.Idx) : ∃ t : Fin cfg1.N, (cfg1.win 8).flush t = true ∧ i ∈ ((cfg1.win 8).blk t).view.set := by
  have hi0 : (i 0).val < 100000 := (i 0).isLt
  have hi1 : (i 1).val < 64 := (i 1).isLt
  have hN : (i 0).val / 10000 < cfg1.N := by rw [show cfg1.N = 10 from N_1]; omega
  obtain ⟨-, -, -, -, -, -, -, -, -, -, -, -, -, -, -, -, e0, e1⟩ := idx_facts1 ⟨(i 0).val / 10000, hN⟩
  have e0' : win1_8.index ⟨(i 0).val / 10000, hN⟩ (0 : Fin 2) = (i 0).val / 10000 := e0
  refine ⟨⟨(i 0).val / 10000, hN⟩, flush1_8 _, ?_⟩
  rw [mem_blk1]
  intro a
  match a with
  | ⟨0, _⟩ =>
    show win1_8.index ⟨(i 0).val / 10000, hN⟩ (0 : Fin 2) * 10000 ≤ (i 0).val
      ∧ (i 0).val < win1_8.index ⟨(i 0).val / 10000, hN⟩ (0 : Fin 2) * 10000 + 10000
    omega
  | ⟨1, _⟩ =>
    show win1_8.index ⟨(i 0).val / 10000, hN⟩ (1 : Fin 2) * 64 ≤ (i 1).val
      ∧ (i 1).val < win1_8.index ⟨(i 0).val / 10000, hN⟩ (1 : Fin 2) * 64 + 64
    omega

/-- THE SECOND LAUNCH'S OUTPUT ARRAY after its ten write-backs: the closing map over the layer of the arrays the launch
    finds. -/
theorem final1 (c : Dev nD) : (dat1 V c).arrAt 8 cfg1.N = whole1 V c :=
  (dat1 V c).arrAt_eq_of_cover 8 (whole1 V c) (fun t _ => flushed1_eq V c t) cover1

end Cert.KernelIdeal.Region1Value

end
-- ==== Proof.HostValue.lean ====
/-
  What the host operations around the two launches leave in the buffers the launches read.

  Before the first launch the host computes, from the edge list (sources, destinations): the in-degree of every node —
  ones scattered and added at the destinations —, reshaped to a column; and the sum, per destination node, of the
  feature rows gathered at the edges' sources (a negative source index counted from the end first).  It reshapes the first
  bias to a row.  Between the launches it gathers and sums in the same way the rows of the first launch's OUTPUT, and
  reshapes the other two biases.  Nothing writes an argument.  Each buffer a launch reads is stated here as those
  operations' term of the arguments (and, for the second launch, of the first launch's output array).
-/
import proofs.«156420_j55009941128032_2_alg».proof.Proof.Gen.KernelIdeal.Frame
import Idealize.ShloMosaic.Lib.StableHlo.Run
import Idealize.ShloMosaic.PureOps.Ideal

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo

/-- Every node's in-degree: a one added at each edge's destination. -/
def degOf (dst : IVec S1600000 32) : FVec Ideal S100000 .f32 :=
  Host.scatterAdd scatter_S100000_S1600000x1_S1600000_n_0_0_1
    (broadcastInDim S100000 ![] Facts₀.bcast_S_S100000 (constant (F := Ideal) S_ .f32 0x00000000#32))
    (broadcastInDim S1600000x1 ![0] Facts₀.bcast_S1600000_S1600000x1_0 dst)
    (broadcastInDim S1600000 ![] Facts₀.bcast_S_S1600000 (constant (F := Ideal) S_ .f32 0x3F800000#32))

/-- The edges' source rows as gather indices: a negative index counted from the end. -/
def srcRows (src : IVec S1600000 32) : IVec S1600000x1 32 :=
  broadcastInDim S1600000x1 ![0] Facts₀.bcast_S1600000_S1600000x1_0
    (select (cmpi .slt src (broadcastInDim S1600000 ![] Facts₀.bcast_S_S1600000 (constantI S_ 32 0#32)))
      (addi src (broadcastInDim S1600000 ![] Facts₀.bcast_S_S1600000 (constantI S_ 32 100000#32))) src)

/-- Per destination node, the sum of the rows of `x` gathered at the edges' sources. -/
def aggOf (x : FVec Ideal S100000x64 .f32) (src dst : IVec S1600000 32) : FVec Ideal S100000x64 .f32 :=
  Host.scatterAdd scatter_S100000x64_S1600000x1_S1600000x64_1_0_0_1
    (broadcastInDim S100000x64 ![] Facts₀.bcast_S_S100000x64 (constant (F := Ideal) S_ .f32 0x00000000#32))
    (broadcastInDim S1600000x1 ![0] Facts₀.bcast_S1600000_S1600000x1_0 dst)
    (Host.gather gather_S100000x64_S1600000x1_S1600000x64_1_0_n_n_0_1_164 x (srcRows src))

variable (m : (ℓ : Loc nD τ sig) → Buf (Elt Ideal) ℓ) (ρ : Dev nD → PrngReg)

/-! ## Entering the first launch -/

theorem V1_arg0 (c : Dev nD) : (V1 m ρ c main_arg0 : S100000x64.Idx → EReal) = m ((c : Thread nD τ).loc main_arg0) := by
  show StableHlo.after hostOps0 (W0 m ρ c) (Proc.devRef .tc main_arg0) = _
  after_results <;> rfl
theorem V1_arg1 (c : Dev nD) : (V1 m ρ c main_arg1 : IVec S1600000 32) = m ((c : Thread nD τ).loc main_arg1) := by
  show StableHlo.after hostOps0 (W0 m ρ c) (Proc.devRef .tc main_arg1) = _
  after_results <;> rfl
theorem V1_arg2 (c : Dev nD) : (V1 m ρ c main_arg2 : IVec S1600000 32) = m ((c : Thread nD τ).loc main_arg2) := by
  show StableHlo.after hostOps0 (W0 m ρ c) (Proc.devRef .tc main_arg2) = _
  after_results <;> rfl
theorem V1_arg3 (c : Dev nD) : (V1 m ρ c main_arg3 : S64x64.Idx → EReal) = m ((c : Thread nD τ).loc main_arg3) := by
  show StableHlo.after hostOps0 (W0 m ρ c) (Proc.devRef .tc main_arg3) = _
  after_results <;> rfl
theorem V1_arg4 (c : Dev nD) : (V1 m ρ c main_arg4 : S64x64.Idx → EReal) = m ((c : Thread nD τ).loc main_arg4) := by
  show StableHlo.after hostOps0 (W0 m ρ c) (Proc.devRef .tc main_arg4) = _
  after_results <;> rfl
theorem V1_arg6 (c : Dev nD) : (V1 m ρ c main_arg6 : S64x64.Idx → EReal) = m ((c : Thread nD τ).loc main_arg6) := by
  show StableHlo.after hostOps0 (W0 m ρ c) (Proc.devRef .tc main_arg6) = _
  after_results <;> rfl
theorem V1_arg7 (c : Dev nD) : (V1 m ρ c main_arg7 : S64x64.Idx → EReal) = m ((c : Thread nD τ).loc main_arg7) := by
  show StableHlo.after hostOps0 (W0 m ρ c) (Proc.devRef .tc main_arg7) = _
  after_results <;> rfl
theorem V1_arg8 (c : Dev nD) : (V1 m ρ c main_arg8 : S64.Idx → EReal) = m ((c : Thread nD τ).loc main_arg8) := by
  show StableHlo.after hostOps0 (W0 m ρ c) (Proc.devRef .tc main_arg8) = _
  after_results <;> rfl
theorem V1_arg9 (c : Dev nD) : (V1 m ρ c main_arg9 : S64x64.Idx → EReal) = m ((c : Thread nD τ).loc main_arg9) := by
  show StableHlo.after hostOps0 (W0 m ρ c) (Proc.devRef .tc main_arg9) = _
  after_results <;> rfl
theorem V1_arg10 (c : Dev nD) : (V1 m ρ c main_arg10 : S64.Idx → EReal) = m ((c : Thread nD τ).loc main_arg10) := by
  show StableHlo.after hostOps0 (W0 m ρ c) (Proc.devRef .tc main_arg10) = _
  after_results <;> rfl

/-- The neighbour sums of the node features. -/
theorem V1_v14 (c : Dev nD) : (V1 m ρ c main_call0_v14 : S100000x64.Idx → EReal)
    = aggOf (m ((c : Thread nD τ).loc main_arg0)) (m ((c : Thread nD τ).loc main_arg1)) (m ((c : Thread nD τ).loc main_arg2)) := by
  show StableHlo.after hostOps0 (W0 m ρ c) (Proc.devRef .tc main_call0_v14) = _
  after_results <;> rfl

/-- The degree column. -/
theorem V1_v4 (c : Dev nD) : (V1 m ρ c main_call0_v4 : S100000x1.Idx → EReal)
    = shapeCast S100000x1 (degOf (m ((c : Thread nD τ).loc main_arg2))) Facts₀.shapeCasts_S100000_S100000x1 := by
  show StableHlo.after hostOps0 (W0 m ρ c) (Proc.devRef .tc main_call0_v4) = _
  after_results
  funext i
  rfl

/-- The first bias as a row. -/
theorem V1_v15 (c : Dev nD) : (V1 m ρ c main_call0_v15 : S1x64.Idx → EReal)
    = shapeCast S1x64 (m ((c : Thread nD τ).loc main_arg5) : S64.Idx → EReal) Facts₀.shapeCasts_S64_S1x64 := by
  show StableHlo.after hostOps0 (W0 m ρ c) (Proc.devRef .tc main_call0_v15) = _
  after_results <;> rfl

/-! ## Entering the second launch -/

/-- The first launch's output is what its write-backs left. -/
theorem V3_v16 (c : Dev nD) : (V3 m ρ c main_call0_v16 : S100000x64.Idx → EReal) = (dat0 (V1 m ρ) c).arrAt 6 cfg0.N := by
  show StableHlo.after hostOps1 (W2 m ρ c) (Proc.devRef .tc main_call0_v16) = _
  after_results
  exact W2_arr m ρ c 6

/-- The second stretch's neighbour sums, from ANY contents: of the first launch's output buffer and the edge list. -/
theorem stretch1_v26 (G : Valuation τ sig (Elt Ideal)) :
    (StableHlo.after hostOps1 G (Proc.devRef .tc main_call0_v26) : S100000x64.Idx → EReal)
      = aggOf (G (Proc.devRef .tc main_call0_v16)) (G (Proc.devRef .tc main_arg1)) (G (Proc.devRef .tc main_arg2)) := by
  after_results
  rfl

theorem W2_v16 (c : Dev nD) : (W2 m ρ c (Proc.devRef .tc main_call0_v16) : S100000x64.Idx → EReal) = (dat0 (V1 m ρ) c).arrAt 6 cfg0.N :=
  W2_arr m ρ c 6
theorem W2_arg1 (c : Dev nD) : (W2 m ρ c (Proc.devRef .tc main_arg1) : IVec S1600000 32) = m ((c : Thread nD τ).loc main_arg1) :=
  (W2_of_ne m ρ c main_arg1 (by decide)).trans (V1_arg1 m ρ c)
theorem W2_arg2 (c : Dev nD) : (W2 m ρ c (Proc.devRef .tc main_arg2) : IVec S1600000 32) = m ((c : Thread nD τ).loc main_arg2) :=
  (W2_of_ne m ρ c main_arg2 (by decide)).trans (V1_arg2 m ρ c)

/-- The neighbour sums of the first launch's output. -/
theorem V3_v26 (c : Dev nD) : (V3 m ρ c main_call0_v26 : S100000x64.Idx → EReal)
    = aggOf ((dat0 (V1 m ρ) c).arrAt 6 cfg0.N) (m ((c : Thread nD τ).loc main_arg1)) (m ((c : Thread nD τ).loc main_arg2)) := by
  refine (stretch1_v26 (W2 m ρ c)).trans ?_
  rw [W2_v16 m ρ c, W2_arg1 m ρ c, W2_arg2 m ρ c]

/-- The degree column, untouched since the first stretch. -/
theorem V3_v4 (c : Dev nD) : (V3 m ρ c main_call0_v4 : S100000x1.Idx → EReal)
    = shapeCast S100000x1 (degOf (m ((c : Thread nD τ).loc main_arg2))) Facts₀.shapeCasts_S100000_S100000x1 := by
  show StableHlo.after hostOps1 (W2 m ρ c) (Proc.devRef .tc main_call0_v4) = _
  after_results
  exact ((W2_arr m ρ c 2).trans (((dat0 (V1 m ρ) c).arrAt_in 2 rfl _).trans (A_eq0 (V1 m ρ) c 2))).trans (V1_v4 m ρ c)

theorem V3_arg6 (c : Dev nD) : (V3 m ρ c main_arg6 : S64x64.Idx → EReal) = m ((c : Thread nD τ).loc main_arg6) := by
  show StableHlo.after hostOps1 (W2 m ρ c) (Proc.devRef .tc main_arg6) = _
  after_results
  exact (W2_of_ne m ρ c main_arg6 (by decide)).trans (V1_arg6 m ρ c)
theorem V3_arg7 (c : Dev nD) : (V3 m ρ c main_arg7 : S64x64.Idx → EReal) = m ((c : Thread nD τ).loc main_arg7) := by
  show StableHlo.after hostOps1 (W2 m ρ c) (Proc.devRef .tc main_arg7) = _
  after_results
  exact (W2_of_ne m ρ c main_arg7 (by decide)).trans (V1_arg7 m ρ c)
theorem V3_arg9 (c : Dev nD) : (V3 m ρ c main_arg9 : S64x64.Idx → EReal) = m ((c : Thread nD τ).loc main_arg9) := by
  show StableHlo.after hostOps1 (W2 m ρ c) (Proc.devRef .tc main_arg9) = _
  after_results
  exact (W2_of_ne m ρ c main_arg9 (by decide)).trans (V1_arg9 m ρ c)

/-- The second bias as a row. -/
theorem V3_v27 (c : Dev nD) : (V3 m ρ c main_call0_v27 : S1x64.Idx → EReal)
    = shapeCast S1x64 (m ((c : Thread nD τ).loc main_arg8) : S64.Idx → EReal) Facts₀.shapeCasts_S64_S1x64 := by
  show StableHlo.after hostOps1 (W2 m ρ c) (Proc.devRef .tc main_call0_v27) = _
  after_results
  rw [show W2 m ρ c (Proc.devRef .tc main_arg8) = m ((c : Thread nD τ).loc main_arg8) from
      (W2_of_ne m ρ c main_arg8 (by decide)).trans (V1_arg8 m ρ c)]
  rfl

/-- The closing bias as a row. -/
theorem V3_v28 (c : Dev nD) : (V3 m ρ c main_call0_v28 : S1x64.Idx → EReal)
    = shapeCast S1x64 (m ((c : Thread nD τ).loc main_arg10) : S64.Idx → EReal) Facts₀.shapeCasts_S64_S1x64 := by
  show StableHlo.after hostOps1 (W2 m ρ c) (Proc.devRef .tc main_call0_v28) = _
  after_results
  rw [show W2 m ρ c (Proc.devRef .tc main_arg10) = m ((c : Thread nD τ).loc main_arg10) from
      (W2_of_ne m ρ c main_arg10 (by decide)).trans (V1_arg10 m ρ c)]
  rfl

end Cert.KernelIdeal.HostValue

end
-- ==== Proof.KernelValue.lean ====
/-
  The idealized kernel's result as one function of its arguments.

  Entering the first launch the host has left the neighbour sums of the features, the degree column and the first bias
  as a row; the launch's output array is the first layer of those.  Entering the second launch the host has left the
  neighbour sums of THAT array, the same degree column and the other biases as rows; the launch's output array — the
  program's result — is the closing map over the second layer.  Composed: the result of the arguments alone.
-/
import proofs.«156420_j55009941128032_2_alg».proof.Proof.FinalContents
import proofs.«156420_j55009941128032_2_alg».proof.Proof.RegionValue
import proofs.«156420_j55009941128032_2_alg».proof.Proof.Region1Value
import proofs.«156420_j55009941128032_2_alg».proof.Proof.HostValue

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.SageSpec Cert.KernelIdeal.HostValue

/-- The in-degrees as a column. -/
def degCol (dst : IVec S1600000 32) : S100000x1.Idx → EReal :=
  shapeCast S100000x1 (degOf dst) Facts₀.shapeCasts_S100000_S100000x1

/-- A bias vector as a row. -/
def asRow (b : S64.Idx → EReal) : S1x64.Idx → EReal := shapeCast S1x64 b Facts₀.shapeCasts_S64_S1x64

/-- The first layer: of the features, their neighbour sums over the edge list, the in-degrees. -/
def hidden (x : FVec Ideal S100000x64 .f32) (src dst : IVec S1600000 32) (Ws Wn : FVec Ideal S64x64 .f32)
    (b : FVec Ideal S64 .f32) : FVec Ideal S100000x64 .f32 :=
  layer x (aggOf x src dst) (degCol dst) Ws Wn (asRow b)

/-- The result: the closing map over the second layer, which is of the first layer, ITS neighbour sums, the in-degrees. -/
def result (x : FVec Ideal S100000x64 .f32) (src dst : IVec S1600000 32) (Ws0 Wn0 : FVec Ideal S64x64 .f32) (b0 : FVec Ideal S64 .f32)
    (Ws1 Wn1 : FVec Ideal S64x64 .f32) (b1 : FVec Ideal S64 .f32) (Wfc : FVec Ideal S64x64 .f32) (bfc : FVec Ideal S64 .f32) :
    FVec Ideal S100000x64 .f32 :=
  fcLayer (hidden x src dst Ws0 Wn0 b0) (aggOf (hidden x src dst Ws0 Wn0 b0) src dst) (degCol dst) Ws1 Wn1 (asRow b1) Wfc (asRow bfc)

variable (m : (ℓ : Loc nD τ sig) → Buf (Elt Ideal) ℓ) (ρ : Dev nD → PrngReg)

/-- The first launch's output array is the first layer of the arguments. -/
theorem first_output (c : Dev nD) : (dat0 (V1 m ρ) c).arrAt 6 cfg0.N
    = hidden (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [RegionValue.final0 (V1 m ρ) c]
  show layer (V1 m ρ c main_arg0) (V1 m ρ c main_call0_v14) (V1 m ρ c main_call0_v4) (V1 m ρ c main_arg3) (V1 m ρ c main_arg4)
    (V1 m ρ c main_call0_v15) = _
  rw [V1_arg0 m ρ c, V1_v14 m ρ c, V1_v4 m ρ c, V1_arg3 m ρ c, V1_arg4 m ρ c, V1_v15 m ρ c]
  rfl

/-- The second launch's output array is the result of the arguments. -/
theorem second_output (c : Dev nD) : (dat1 (V3 m ρ) c).arrAt 8 cfg1.N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  rw [Region1Value.final1 (V3 m ρ) c]
  show fcLayer (V3 m ρ c main_call0_v16) (V3 m ρ c main_call0_v26) (V3 m ρ c main_call0_v4) (V3 m ρ c main_arg6) (V3 m ρ c main_arg7)
    (V3 m ρ c main_call0_v27) (V3 m ρ c main_arg9) (V3 m ρ c main_call0_v28) = _
  rw [V3_v16 m ρ c, V3_v26 m ρ c, V3_v4 m ρ c, V3_arg6 m ρ c, V3_arg7 m ρ c, V3_v27 m ρ c, V3_arg9 m ρ c, V3_v28 m ρ c,
    first_output m ρ c]
  rfl

/-- THE RUN, READ: every weakly fair execution terminates, nothing faulting, with the result buffer at `result` of the
    arguments and the arguments unchanged. -/
theorem run_value : θ_run defs (onTc (τ := τ) (main (F := Ideal))) ⟨m, fun _ => 0, ρ⟩ (fun r => ∀ c : Dev nD,
      r.2.mem ((c.tc : Thread nD τ).loc main_v0)
        = result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
            (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (second_output m ρ c), (h c).2⟩) (FinalContents.run_contents m ρ)

end Cert.KernelIdeal.KernelValue

end
-- ==== Proof.LibHostDot.lean ====
/-
  A host matrix product read at one entry.

  The host's `dot_general` of an M × K matrix with a K × N matrix — left contracting axis 1, right contracting axis 0, no
  batch axis: the plain product l · r — is at the ideal values the sum over the contraction coordinate k of
  l (i, k) · r (k, j): entry (i, j) is the dot product of row i of the left operand with column j of the right one.
  The statement is over any dimension record whose six lists are those, whatever name a printed record carries.
-/
import Idealize.ShloMosaic.Lib.ValueIdx
import Idealize.ShloMosaic.PureOps.Ideal.Laws

noncomputable section

open scoped BigOperators

namespace Idealize.ShloMosaic.HostDot

open Idealize.ShloMosaic Idealize.ShloMosaic.ValueIdx

/-- Entry (i, j) of an M × K by K × N host `dot_general` contracting the left operand's columns with the right
    operand's rows, at the ideal values: the dot product of the left operand's row i with the right operand's column j. -/
theorem dotGeneral_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    Host.dotGeneral D prec l r (ix2 i j) = ∑ k : Fin K, l (ix2 i k) * r (ix2 k j) := by
  obtain ⟨lc, rc, ln, rn, lb, rb, wf⟩ := D
  dsimp only at hlc hrc hln hrn hlb hrb
  subst hlc hrc hln hrn hlb hrb
  refine (Ideal.dotGeneral_apply _ prec .single l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.HostDot

end
-- ==== Proof.RefValue.lean ====
/-
  The reference, layer by layer, entry by entry.

  The reference computes a layer as whole-array host operations: two matrix products, the neighbour sums divided by the
  in-degree (at least one) spread from a vector to a column to the full width, the bias spread from a vector to a row
  to the full height; then the same again on the result; then one more matrix product and bias.  Read at node r,
  feature j, a layer is the layer entry of the specification with the degree vector taken as a column and the bias
  vector as a row, and the closing product is the closing map's entry.
-/
import proofs.«156420_j55009941128032_2_alg».proof.Proof.Gen.ReferenceIdeal.Read
import proofs.«156420_j55009941128032_2_alg».proof.Proof.Spec
import proofs.«156420_j55009941128032_2_alg».proof.Proof.LibHostDot
import proofs.«156420_j55009941128032_2_alg».proof.Proof.LibKeptColumn
import Idealize.ShloMosaic.Lib.ValueLayout

noncomputable section

open scoped BigOperators

namespace Cert.ReferenceIdeal.RefValue

open Cert.ReferenceIdeal Cert.ReferenceIdeal.Gen Cert.ReferenceIdeal.Read
open Idealize.ShloMosaic Idealize.ShloMosaic.ValueIdx Idealize.ShloMosaic.SageSpec

/-- One layer as the reference's host operations, of the node features, their neighbour sums and the degree vector. -/
def hostLayer (x msg : FVec Ideal S100000x64 .f32) (deg : FVec Ideal S100000 .f32) (Ws Wn : FVec Ideal S64x64 .f32)
    (b : FVec Ideal S64 .f32) : FVec Ideal S100000x64 .f32 :=
  addf (addf (Host.dotGeneral dot_S100000x64_S64x64_S100000x64_1_0_0_1_n_n none x Ws)
      (Host.dotGeneral dot_S100000x64_S64x64_S100000x64_1_0_0_1_n_n none
        (Host.divf msg (broadcastInDim S100000x64 ![0, 1] Facts₀.bcast_S100000x1_S100000x64_0_1
          (broadcastInDim S100000x1 ![0] Facts₀.bcast_S100000_S100000x1_0
            (maximumf deg (broadcastInDim S100000 ![] Facts₀.bcast_S_S100000 (constant (F := Ideal) S_ .f32 0x3F800000#32))))))
        Wn))
    (broadcastInDim S100000x64 ![0, 1] Facts₀.bcast_S1x64_S100000x64_0_1 (broadcastInDim S1x64 ![1] Facts₀.bcast_S64_S1x64_1 b))

/-- The closing linear map as the reference's host operations. -/
def hostFc (h : FVec Ideal S100000x64 .f32) (W : FVec Ideal S64x64 .f32) (b : FVec Ideal S64 .f32) : FVec Ideal S100000x64 .f32 :=
  addf (Host.dotGeneral dot_S100000x64_S64x64_S100000x64_1_0_0_1_n_n none h W)
    (broadcastInDim S100000x64 ![0, 1] Facts₀.bcast_S1x64_S100000x64_0_1 (broadcastInDim S1x64 ![1] Facts₀.bcast_S64_S1x64_1 b))

/-- A bias vector spread to a row and then along the rows reads, at node `r`, feature `j`, what the vector reshaped to a
    row reads at `j`: its entry `j`. -/
theorem bias_row_at (b : FVec Ideal S64 .f32) (h1 : S1x64.BroadcastsInDim S100000x64 ![0, 1]) (h2 : S64.BroadcastsInDim S1x64 ![1])
    (hb : S64.ShapeCasts S1x64) (r : Fin 100000) (j : Fin 64) :
    broadcastInDim S100000x64 ![0, 1] h1 (broadcastInDim S1x64 ![1] h2 b) (ix2 r j) = shapeCast S1x64 b hb (ix2 (0 : Fin 1) j) := by
  refine (broadcastInDim_apply _ h1 _ (ix2 r j) (ix2 (0 : Fin 1) j) ?_).trans ?_
  · intro a
    match a with
    | ⟨0, _⟩ => show 0 = if (1 : Nat) = 1 then 0 else r.val; rw [if_pos rfl]
    | ⟨1, _⟩ => show j.val = if (64 : Nat) = 1 then 0 else j.val; rw [if_neg (by decide)]
  · refine (broadcastInDim_apply _ h2 b (ix2 (0 : Fin 1) j) (ix1 j) ?_).trans (shapeCast_a_1a_apply b hb 0 j).symm
    intro a
    match a with
    | ⟨0, _⟩ => show j.val = if (64 : Nat) = 1 then 0 else j.val; rw [if_neg (by decide)]

/-- The degree vector, made at least one, spread to a column and then along the features reads, at node `r`, the larger
    of one and what the vector reshaped to a column reads at `r`. -/
theorem deg_col_at (deg : FVec Ideal S100000 .f32) (h1 : S100000x1.BroadcastsInDim S100000x64 ![0, 1])
    (h2 : S100000.BroadcastsInDim S100000x1 ![0]) (h3 : S_.BroadcastsInDim S100000 ![]) (hc : S100000.ShapeCasts S100000x1)
    (r : Fin 100000) (k : Fin 64) :
    broadcastInDim S100000x64 ![0, 1] h1 (broadcastInDim S100000x1 ![0] h2
        (maximumf deg (broadcastInDim S100000 ![] h3 (constant (F := Ideal) S_ .f32 0x3F800000#32)))) (ix2 r k)
      = max (shapeCast S100000x1 deg hc (ix2 r (0 : Fin 1))) one := by
  refine (broadcastInDim_apply _ h1 _ (ix2 r k) (ix2 r (0 : Fin 1)) ?_).trans ?_
  · intro a
    match a with
    | ⟨0, _⟩ => show r.val = if (100000 : Nat) = 1 then 0 else r.val; rw [if_neg (by decide)]
    | ⟨1, _⟩ => show 0 = if (1 : Nat) = 1 then 0 else k.val; rw [if_pos rfl]
  · refine (broadcastInDim_apply _ h2 _ (ix2 r (0 : Fin 1)) (ix1 r) ?_).trans ?_
    · intro a
      match a with
      | ⟨0, _⟩ => show r.val = if (100000 : Nat) = 1 then 0 else r.val; rw [if_neg (by decide)]
    · rw [KeptColumn.shapeCast_a_a1_apply deg hc r 0]
      show max (deg (ix1 r)) (broadcastInDim S100000 ![] h3 (constant (F := Ideal) S_ .f32 0x3F800000#32) (ix1 r)) = _
      exact congrArg (max (deg (ix1 r))) ((broadcastInDim_apply _ h3 _ (ix1 r) ix0 (fun a => a.elim0)).trans rfl)

/-- A LAYER of the reference at node `r`, feature `j`. -/
theorem hostLayer_apply (x msg : FVec Ideal S100000x64 .f32) (deg : FVec Ideal S100000 .f32) (Ws Wn : FVec Ideal S64x64 .f32)
    (b : FVec Ideal S64 .f32) (hc : S100000.ShapeCasts S100000x1) (hb : S64.ShapeCasts S1x64) (r : Fin 100000) (j : Fin 64) :
    hostLayer x msg deg Ws Wn b (ix2 r j) = layerAt x msg (shapeCast S100000x1 deg hc) Ws Wn (shapeCast S1x64 b hb) r j := by
  unfold hostLayer layerAt
  simp only [addf_apply]
  rw [HostDot.dotGeneral_apply dot_S100000x64_S64x64_S100000x64_1_0_0_1_n_n rfl rfl rfl rfl rfl rfl none x Ws r j,
    HostDot.dotGeneral_apply dot_S100000x64_S64x64_S100000x64_1_0_0_1_n_n rfl rfl rfl rfl rfl rfl none _ Wn r j, bias_row_at b _ _ hb r j]
  refine congrArg (· + shapeCast S1x64 b hb (ix2 (0 : Fin 1) j)) (congrArg₂ (· + ·) rfl ?_)
  refine Finset.sum_congr rfl fun k _ => congrArg (· * Wn (ix2 k j)) ?_
  exact congrArg (Ideal.div (msg (ix2 r k))) (deg_col_at deg _ _ _ hc r k)

/-- THE CLOSING MAP of the reference at node `r`, feature `j`. -/
theorem hostFc_apply (h : FVec Ideal S100000x64 .f32) (W : FVec Ideal S64x64 .f32) (b : FVec Ideal S64 .f32)
    (hb : S64.ShapeCasts S1x64) (r : Fin 100000) (j : Fin 64) :
    hostFc h W b (ix2 r j) = fcAt h W (shapeCast S1x64 b hb) r j := by
  unfold hostFc fcAt
  simp only [addf_apply]
  rw [HostDot.dotGeneral_apply dot_S100000x64_S64x64_S100000x64_1_0_0_1_n_n rfl rfl rfl rfl rfl rfl none h W r j, bias_row_at b _ _ hb r j]

/-- A layer of the reference, as one array: the specification's layer. -/
theorem hostLayer_eq (x msg : FVec Ideal S100000x64 .f32) (deg : FVec Ideal S100000 .f32) (Ws Wn : FVec Ideal S64x64 .f32)
    (b : FVec Ideal S64 .f32) (hc : S100000.ShapeCasts S100000x1) (hb : S64.ShapeCasts S1x64) :
    hostLayer x msg deg Ws Wn b = layer x msg (shapeCast S100000x1 deg hc) Ws Wn (shapeCast S1x64 b hb) := by
  funext i
  obtain ⟨r, j, rfl⟩ : ∃ (r : Fin 100000) (j : Fin 64), i = ix2 r j := ⟨i 0, i 1, eq_ix2 i⟩
  exact hostLayer_apply x msg deg Ws Wn b hc hb r j

/-- A layer followed by the closing map, as one array: the specification's. -/
theorem hostFc_hostLayer_eq (x msg : FVec Ideal S100000x64 .f32) (deg : FVec Ideal S100000 .f32) (Ws Wn : FVec Ideal S64x64 .f32)
    (b : FVec Ideal S64 .f32) (Wfc : FVec Ideal S64x64 .f32) (bfc : FVec Ideal S64 .f32)
    (hc : S100000.ShapeCasts S100000x1) (hb : S64.ShapeCasts S1x64) :
    hostFc (hostLayer x msg deg Ws Wn b) Wfc bfc
      = fcLayer x msg (shapeCast S100000x1 deg hc) Ws Wn (shapeCast S1x64 b hb) Wfc (shapeCast S1x64 bfc hb) := by
  funext i
  obtain ⟨r, j, rfl⟩ : ∃ (r : Fin 100000) (j : Fin 64), i = ix2 r j := ⟨i 0, i 1, eq_ix2 i⟩
  rw [hostFc_apply _ _ _ hb r j, hostLayer_eq x msg deg Ws Wn b hc hb]
  rfl

/-! ## The reference's stages are those operations -/

/-- The first layer's stage is a layer of the features, their neighbour sums and the degrees. -/
theorem val_v24_eq (x0 : FVec Ideal S100000x64 .f32) (x1 x2 : IVec S1600000 32) (x3 x4 : FVec Ideal S64x64 .f32) (x5 : FVec Ideal S64 .f32) :
    val_main_v24 (F := Ideal) x0 x1 x2 x3 x4 x5
      = hostLayer x0 (val_main_v9 (F := Ideal) x0 x1 x2) (val_main_v13 (F := Ideal) x2) x3 x4 x5 := rfl

/-- The second layer's stage is a layer of the first layer's stage, ITS neighbour sums and the degrees. -/
theorem val_v49_eq (x0 : FVec Ideal S100000x64 .f32) (x1 x2 : IVec S1600000 32) (x3 x4 : FVec Ideal S64x64 .f32) (x5 : FVec Ideal S64 .f32)
    (x6 x7 : FVec Ideal S64x64 .f32) (x8 : FVec Ideal S64 .f32) :
    val_main_v49 (F := Ideal) x0 x1 x2 x3 x4 x5 x6 x7 x8
      = hostLayer (val_main_v24 (F := Ideal) x0 x1 x2 x3 x4 x5) (val_main_v34 (F := Ideal) x0 x1 x2 x3 x4 x5) (val_main_v38 (F := Ideal) x2) x6 x7 x8 := rfl

/-- The result's stage is the closing map of the second layer's stage. -/
theorem val_v53_eq (x0 : FVec Ideal S100000x64 .f32) (x1 x2 : IVec S1600000 32) (x3 x4 : FVec Ideal S64x64 .f32) (x5 : FVec Ideal S64 .f32)
    (x6 x7 : FVec Ideal S64x64 .f32) (x8 : FVec Ideal S64 .f32) (x9 : FVec Ideal S64x64 .f32) (x10 : FVec Ideal S64 .f32) :
    val_main_v53 (F := Ideal) x0 x1 x2 x3 x4 x5 x6 x7 x8 x9 x10
      = hostFc (val_main_v49 (F := Ideal) x0 x1 x2 x3 x4 x5 x6 x7 x8) x9 x10 := rfl

end Cert.ReferenceIdeal.RefValue

end
-- ==== Proof.Bridge.lean ====
/-
  The idealized kernel's result and the reference's result are one function of the arguments.

  Both are: the closing map over a second layer of (a first layer, its neighbour sums, the in-degrees), the first layer
  being of (the features, their neighbour sums, the in-degrees).  The neighbour sums and the in-degrees are the SAME host
  operations in both programs (a gather at the edges' sources, a scatter-add at their destinations), carried here as
  they are and never opened; the reference computes the in-degrees twice and the kernel once, to the same term.  The
  layers and the closing map agree entry by entry: the reference's read at an index is the specification's entry, which
  is what each launch's output array holds.
-/
import proofs.«156420_j55009941128032_2_alg».proof.Proof.KernelValue
import proofs.«156420_j55009941128032_2_alg».proof.Proof.RefValue

noncomputable section

namespace Cert.Bridge

open Idealize.ShloMosaic Idealize.ShloMosaic.SageSpec
open Cert.KernelIdeal.HostValue Cert.KernelIdeal.KernelValue Cert.ReferenceIdeal.Read Cert.ReferenceIdeal.RefValue

/-- The in-degrees: the kernel's scatter-add of ones is the reference's first one. -/
theorem deg_eq13 (dst : IVec Cert.KernelIdeal.S1600000 32) : degOf dst = val_main_v13 (F := Ideal) dst := by
  unfold degOf val_main_v13 val_main_v11 val_main_cst_2 val_main_v12 val_main_v10 val_main_cst_1
  rfl

/-- … and its second one. -/
theorem deg_eq38 (dst : IVec Cert.KernelIdeal.S1600000 32) : degOf dst = val_main_v38 (F := Ideal) dst := by
  unfold degOf val_main_v38 val_main_v36 val_main_cst_8 val_main_v37 val_main_v35 val_main_cst_7
  rfl

/-- The neighbour sums of the features: the same gather and scatter-add. -/
theorem agg_eq9 (x : FVec Ideal Cert.KernelIdeal.S100000x64 .f32) (src dst : IVec Cert.KernelIdeal.S1600000 32) :
    aggOf x src dst = val_main_v9 (F := Ideal) x src dst := by
  unfold aggOf srcRows val_main_v9 val_main_v7 val_main_cst val_main_v8 val_main_v6 val_main_v5 val_main_v4 val_main_v1 val_main_v0
    val_main_c val_main_v3 val_main_v2 val_main_c_0
  rfl

/-- The neighbour sums of the first layer: the same gather and scatter-add, of the reference's first layer. -/
theorem agg_eq34 (x0 : FVec Ideal Cert.KernelIdeal.S100000x64 .f32) (x1 x2 : IVec Cert.KernelIdeal.S1600000 32) (x3 x4 : FVec Ideal Cert.KernelIdeal.S64x64 .f32)
    (x5 : FVec Ideal Cert.KernelIdeal.S64 .f32) :
    aggOf (val_main_v24 (F := Ideal) x0 x1 x2 x3 x4 x5) x1 x2 = val_main_v34 (F := Ideal) x0 x1 x2 x3 x4 x5 := by
  unfold aggOf srcRows val_main_v34 val_main_v32 val_main_cst_6 val_main_v33 val_main_v31 val_main_v30 val_main_v29 val_main_v26
    val_main_v25 val_main_c_4 val_main_v28 val_main_v27 val_main_c_5
  rfl

/-- The reference's first layer is the kernel's. -/
theorem first_layer_eq (x : FVec Ideal Cert.KernelIdeal.S100000x64 .f32) (src dst : IVec Cert.KernelIdeal.S1600000 32) (Ws Wn : FVec Ideal Cert.KernelIdeal.S64x64 .f32)
    (b : FVec Ideal Cert.KernelIdeal.S64 .f32) :
    val_main_v24 (F := Ideal) x src dst Ws Wn b = hidden x src dst Ws Wn b := by
  rw [val_v24_eq, hostLayer_eq _ _ _ _ _ _ Cert.KernelIdeal.Facts₀.shapeCasts_S100000_S100000x1 Cert.KernelIdeal.Facts₀.shapeCasts_S64_S1x64,
    ← agg_eq9, ← deg_eq13]
  rfl

/-- THE TWO RESULTS ARE ONE FUNCTION of the arguments. -/
theorem result_eq_ref (x : FVec Ideal Cert.KernelIdeal.S100000x64 .f32) (src dst : IVec Cert.KernelIdeal.S1600000 32) (Ws0 Wn0 : FVec Ideal Cert.KernelIdeal.S64x64 .f32)
    (b0 : FVec Ideal Cert.KernelIdeal.S64 .f32) (Ws1 Wn1 : FVec Ideal Cert.KernelIdeal.S64x64 .f32) (b1 : FVec Ideal Cert.KernelIdeal.S64 .f32)
    (Wfc : FVec Ideal Cert.KernelIdeal.S64x64 .f32) (bfc : FVec Ideal Cert.KernelIdeal.S64 .f32) :
    val_main_v53 (F := Ideal) x src dst Ws0 Wn0 b0 Ws1 Wn1 b1 Wfc bfc = result x src dst Ws0 Wn0 b0 Ws1 Wn1 b1 Wfc bfc := by
  rw [val_v53_eq, val_v49_eq,
    hostFc_hostLayer_eq _ _ _ _ _ _ _ _ Cert.KernelIdeal.Facts₀.shapeCasts_S100000_S100000x1 Cert.KernelIdeal.Facts₀.shapeCasts_S64_S1x64,
    ← agg_eq34, ← deg_eq38, first_layer_eq]
  rfl

end Cert.Bridge

end
-- ==== Proof.lean ====
/-
  Two graph-convolution layers and a closing linear map: the kernel against the reference, at the ideal values.

  Each layer sends node r's features x(r,·) to  x(r,·)·Ws + mean_r·Wn + b,  where mean_r is the sum of the features
  of r's in-neighbours (over the edge list: gathered at the sources, added at the destinations) divided by the
  in-degree, a node without in-neighbours dividing by one.  The reference computes everything with whole-array host
  operations.  The kernel leaves the gather and scatter-add on the host and runs each layer's dense part as a launch
  over ten blocks of 10000 rows, the second launch also applying the closing map; it computes the in-degrees once.

  The frames are the generated ones (the reference's: its generated run with the result dropped); nothing was rewritten
  by the ideal pass.  For the equivalence: the kernel's run is re-posted with the result buffer NAMED (the fold of the
  second launch's write-backs); each launch's output array is one whole-array function of the arrays it finds, because
  an entry of row r reads only row r and the ten blocks tile the rows; the host stretches are read back to the
  arguments; and the reference's stages, read at an index, are the same entries.  The neighbour sums and degrees are the
  same host terms on both sides and are never opened.  No law of the extended reals beyond rewriting equals by equals
  is used, so the precondition is never opened.
-/
import proofs.«156420_j55009941128032_2_alg».proof.Defs
import proofs.«156420_j55009941128032_2_alg».proof.Proof.Gen.Kernel
import proofs.«156420_j55009941128032_2_alg».proof.Proof.Gen.Kernel.Skeleton
import proofs.«156420_j55009941128032_2_alg».proof.Proof.Gen.Kernel.Launch
import proofs.«156420_j55009941128032_2_alg».proof.Proof.Gen.Kernel.Points
import proofs.«156420_j55009941128032_2_alg».proof.Proof.Gen.Kernel.Frame
import proofs.«156420_j55009941128032_2_alg».proof.Proof.Gen.KernelIdeal
import proofs.«156420_j55009941128032_2_alg».proof.Proof.Gen.KernelIdeal.Skeleton
import proofs.«156420_j55009941128032_2_alg».proof.Proof.Gen.KernelIdeal.Launch
import proofs.«156420_j55009941128032_2_alg».proof.Proof.Gen.KernelIdeal.Points
import proofs.«156420_j55009941128032_2_alg».proof.Proof.Gen.KernelIdeal.Frame
import proofs.«156420_j55009941128032_2_alg».proof.Proof.Gen.ReferenceIdeal
import proofs.«156420_j55009941128032_2_alg».proof.Proof.Gen.ReferenceIdeal.Run
import proofs.«156420_j55009941128032_2_alg».proof.Proof.Gen.ReferenceIdeal.Read
import proofs.«156420_j55009941128032_2_alg».proof.Proof.Gen.Pre_finite_inputs
import proofs.«156420_j55009941128032_2_alg».proof.Proof.KernelValue
import proofs.«156420_j55009941128032_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- The idealized kernel runs and keeps its arguments: the generated frame. -/
theorem frame_kernelIdeal : Cert.frame_KernelIdeal := fun m ρ _ => Cert.KernelIdeal.Gen.frame m ρ

/-- The reference runs and keeps its arguments: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end with the result buffer at ONE function of the arguments. -/
theorem algebraic : Cert.algebraic_KernelIdeal_ReferenceIdeal := by
  intro m ρ m' ρ' _ hagree
  refine ⟨fun c => Cert.KernelIdeal.KernelValue.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)),
    Cert.KernelIdeal.KernelValue.run_value m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v53_eq, a0, a1, a2, a3, a4, a5, a6, a7, a8, a9, a10]
  exact Cert.Bridge.result_eq_ref _ _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
